-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with the result array named.

  @main is four segments: the host operations that aggregate the neighbour means, the first combine region, the host
  operations that aggregate the hidden layer's means, the second combine region. Every weakly fair execution runs them
  in order and ends with every buffer at the contents of the last boundary; read at the result buffer this names the
  result array, and read at the argument buffers it says they are as launched.
-/
import proofs.«155191_j47656957116899_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the arguments as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.PointValue.lean ====
/-
  What one grid point of the combine kernel computes, entry by entry, at the ideal values.

  A grid point holds a block of 5000 rows of the aggregated neighbour means `a` and of the node features `x`, the two
  128×128 weight matrices `Wl`, `Wr` and the bias row `b`. The conversions to bf16 are the identity on ideal values and each
  matrix product starts from the zero accumulator, so entry (p, q) of the stored block is

      (∑ k, a[p,k]·Wl[k,q]) + (∑ k, x[p,k]·Wr[k,q]) + b[0,q],

  clamped below by the zero literal in the first layer and left as it is in the second.
-/
import proofs.«155191_j47656957116899_1_alg».proof.Proof.Gen.KernelIdeal.Skeleton
import proofs.«155191_j47656957116899_1_alg».proof.Proof.LibContract
import Idealize.ShloMosaic.Lib.Pipeline.Value
import Idealize.ShloMosaic.Lib.ValueIdx
import Idealize.ShloMosaic.PureOps.Ideal.Laws

noncomputable section

namespace Cert.KernelIdeal.PointValue

open Cert.KernelIdeal Cert.KernelIdeal.Gen Idealize.ShloMosaic Idealize.ShloMosaic.ValueIdx

/-- The body's matrix-product dimensions: rows of the block against columns of the weights, one contracted axis of
    extent 128. -/
abbrev mm := dot_S5000x128_S128x128_S5000x128_1_0_0_1_n_n

/-- The left operand's index for output entry `i` and contraction coordinate `k` is (row of `i`, `k`). -/
theorem mm_lhs (i : S5000x128.Idx) (k : Fin 128) :
    mm.lhsIdx i ((contrEquiv1 mm 128 rfl rfl).symm k) = ix2 (i 0) k := by
  have hk := contrEquiv1_symm_val mm 128 rfl rfl k
  funext a
  apply Fin.ext
  match a with
  | ⟨0, _⟩ =>
    show (mm.lhsIdx i _ 0).val = (i 0).val
    unfold DotDims.lhsIdx
    rw [dif_neg (show ¬(0 : Fin S5000x128.rank) ∈ mm.lhsBatch by decide),
      dif_pos (show (0 : Fin S5000x128.rank) ∈ mm.lhsNonContracting by decide)]
    rfl
  | ⟨1, _⟩ => exact (mm.lhsIdx_val_of_single rfl i _).trans hk

/-- The right operand's index for output entry `i` and contraction coordinate `k` is (`k`, column of `i`). -/
theorem mm_rhs (i : S5000x128.Idx) (k : Fin 128) :
    mm.rhsIdx i ((contrEquiv1 mm 128 rfl rfl).symm k) = ix2 k (i 1) := by
  have hk := contrEquiv1_symm_val mm 128 rfl rfl k
  funext a
  apply Fin.ext
  match a with
  | ⟨0, _⟩ => exact (mm.rhsIdx_val_of_single rfl i _).trans hk
  | ⟨1, _⟩ =>
    show (mm.rhsIdx i _ 1).val = (i 1).val
    unfold DotDims.rhsIdx
    rw [dif_neg (show ¬(1 : Fin S128x128.rank) ∈ mm.rhsBatch by decide),
      dif_pos (show (1 : Fin S128x128.rank) ∈ mm.rhsNonContracting by decide)]
    rfl

/-- A block's product with a weight matrix, from the zero accumulator, at entry (p, q): row `p` against column `q`. -/
theorem mm_apply {φ₁ φ₂ : FTy} (l : FVec Ideal S5000x128 φ₁) (r : FVec Ideal S128x128 φ₂) (p : Fin 5000) (q : Fin 128) :
    FloatOps.matmul mm none l r (constant S5000x128 .f32 0x00000000#32) (ix2 p q)
      = ∑ k : Fin 128, l (ix2 p k) * r (ix2 k q) :=
  ContractSingle.matmul_zero_single mm none 128 rfl rfl l r (ix2 p q) (fun k => l (ix2 p k)) (fun k => r (ix2 k q))
    (fun k => congrArg l (mm_lhs (ix2 p q) k)) (fun k => congrArg r (mm_rhs (ix2 p q) k))

/-- The bias row spread over the block's rows, at entry (p, q): the row's entry `q`. -/
theorem bias_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- The pre-activation of a block at entry (p, q), as the kernel groups it: the two products first, then the bias. -/
def pre (a x : FVec Ideal S5000x128 .f32) (Wl Wr : FVec Ideal S128x128 .f32) (b : FVec Ideal S1x128 .f32)
    (p : Fin 5000) (q : Fin 128) : EReal :=
  (∑ k : Fin 128, a (ix2 p k) * Wl (ix2 k q)) + (∑ k : Fin 128, x (ix2 p k) * Wr (ix2 k q)) + b (ix2 0 q)

/-- First layer: the stored entry is the pre-activation clamped below by the zero literal. -/
theorem layer1_apply (a x : Vec Ideal S5000x128 .f32) (Wl Wr : Vec Ideal S128x128 .f32) (b : Vec Ideal S1x128 .f32)
    (p : Fin 5000) (q : Fin 128) :
    k0_pay1 (F := Ideal) a x Wl Wr b (ix2 p q) = max (pre a x Wl Wr b p q) (Ideal.ofBits .f32 0x00000000#32) := by
  unfold k0_pay1 pre
  simp only [shapeCast_self]
  show max ((FloatOps.matmul (F := Ideal) mm none _ _ _ (ix2 p q) + FloatOps.matmul (F := Ideal) mm none _ _ _ (ix2 p q))
    + broadcastTo S5000x128 b broadcasts_S1x128_S5000x128 (ix2 p q)) _ = _
  rw [mm_apply, mm_apply, bias_apply]
  rfl

/-- Second layer: the stored entry is the pre-activation itself. -/
theorem layer2_apply (a x : Vec Ideal S5000x128 .f32) (Wl Wr : Vec Ideal S128x128 .f32) (b : Vec Ideal S1x128 .f32)
    (p : Fin 5000) (q : Fin 128) :
    k1_pay1 (F := Ideal) a x Wl Wr b (ix2 p q) = pre a x Wl Wr b p q := by
  unfold k1_pay1 pre
  simp only [shapeCast_self]
  show (FloatOps.matmul (F := Ideal) mm none _ _ _ (ix2 p q) + FloatOps.matmul (F := Ideal) mm none _ _ _ (ix2 p q))
    + broadcastTo S5000x128 b broadcasts_S1x128_S5000x128 (ix2 p q) = _
  rw [mm_apply, mm_apply, bias_apply]
  rfl

end Cert.KernelIdeal.PointValue

end
-- ==== Proof.Spec.lean ====
/-
  What the two-layer network computes, as one function of the eight argument arrays.

  With `e` the 2 × 1600000 edge list (row 0 the source of each edge, row 1 its destination), the mean of a node's
  incoming neighbours is

      agg(h)[n, :] = (∑ over edges j with dst j = n of h[src j, :]) / max(#{j : dst j = n}, 1),

  computed by the host as a gather, a scatter-add and a division. One layer is

      pre(a, x)[r, q] = (∑ k, a[r,k]·Wl[k,q]) + (∑ k, x[r,k]·Wr[k,q]) + b[q],

  and the result is  pre₂(agg(h), h)  with  h = max(pre₁(agg(x), x), 0).

  The aggregation is never opened in this certificate: it is ONE function of an array and the edge list, applied by
  both programs to equal arrays.
-/
import proofs.«155191_j47656957116899_1_alg».proof.Proof.Gen.KernelIdeal
import Idealize.ShloMosaic.Lib.ValueIdx
import Idealize.ShloMosaic.PureOps.Ideal.Laws

noncomputable section

namespace Cert.KernelIdeal.Spec

open Cert.KernelIdeal Cert.KernelIdeal.Gen Idealize.ShloMosaic Idealize.ShloMosaic.ValueIdx

section Aggregation

variable {F : FTy → Type} [FloatOps F]

/-- The source node of each edge: row 0 of the edge list. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of each edge: row 1 of the edge list. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The number of edges arriving at each node: ones scatter-added at the destinations. -/
def count (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The neighbour mean from the sources `s`, the destinations `d` and the arrival counts `cnt`: the rows of `h` at the
    sources (a negative source counted from the end), scatter-added at the destinations, divided by max(count, 1). -/
def mean (h : (⟨S100000x128, .f32⟩ : BufTy).Contents (Elt F)) (s d : (⟨S1600000, .i32⟩ : BufTy).Contents (Elt F))
    (cnt : (⟨S100000, .f32⟩ : BufTy).Contents (Elt F)) : (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf cnt (broadcastInDim S100000 ![] bcast_S_S100000 (constant S_ .f32 0x3F800000#32)))))

/-- The neighbour mean of `h` over the edge list `e`. -/
def agg (h : (⟨S100000x128, .f32⟩ : BufTy).Contents (Elt F)) (e : (⟨S2x1600000, .i32⟩ : BufTy).Contents (Elt F)) :
    (⟨S100000x128, .f32⟩ : BufTy).Contents (Elt F) :=
  mean h (srcOf e) (dstOf e) (count (dstOf e))

/-- A bias vector as the one-row matrix the kernel is handed. -/
def row (b : (⟨S128, .f32⟩ : BufTy).Contents (Elt F)) : (⟨S1x128, .f32⟩ : BufTy).Contents (Elt F) :=
  shapeCast S1x128 b shapeCasts_S128_S1x128

end Aggregation

/-- The pre-activation over whole arrays, grouped as the kernel groups it: both products, then the bias. -/
def pre (A X : FVec Ideal S100000x128 .f32) (Wl Wr : FVec Ideal S128x128 .f32) (B : FVec Ideal S1x128 .f32) :
    FVec Ideal S100000x128 .f32 := fun i =>
  (∑ k : Fin 128, A (ix2 (i 0) k) * Wl (ix2 k (i 1))) + (∑ k : Fin 128, X (ix2 (i 0) k) * Wr (ix2 k (i 1))) + B (ix2 0 (i 1))

/-- The first layer over whole arrays: the pre-activation clamped below by the zero literal. -/
def hidden (A X : FVec Ideal S100000x128 .f32) (Wl Wr : FVec Ideal S128x128 .f32) (B : FVec Ideal S1x128 .f32) :
    FVec Ideal S100000x128 .f32 := fun i => max (pre A X Wl Wr B i) (Ideal.ofBits .f32 0x00000000#32)

/-- The hidden layer of the network: the first layer at the neighbour means of the features and the features. -/
def hid (x : FVec Ideal S100000x128 .f32) (e : IVec S2x1600000 32) (W1l : FVec Ideal S128x128 .f32) (b1 : FVec Ideal S128 .f32)
    (W1r : FVec Ideal S128x128 .f32) : FVec Ideal S100000x128 .f32 :=
  hidden (agg (F := Ideal) x e) x W1l W1r (row (F := Ideal) b1)

/-- The network's result: the second layer at the neighbour means of the hidden layer and the hidden layer. -/
def out (x : FVec Ideal S100000x128 .f32) (e : IVec S2x1600000 32) (W1l : FVec Ideal S128x128 .f32) (b1 : FVec Ideal S128 .f32)
    (W1r W2l : FVec Ideal S128x128 .f32) (b2 : FVec Ideal S128 .f32) (W2r : FVec Ideal S128x128 .f32) :
    FVec Ideal S100000x128 .f32 :=
  pre (agg (F := Ideal) (hid x e W1l b1 W1r) e) (hid x e W1l b1 W1r) W2l W2r (row (F := Ideal) b2)

end Cert.KernelIdeal.Spec

end
-- ==== Proof.RegionValue.lean ====
/-
  Each of the two regions leaves in its output array ONE function of the arrays it finds.

  A region runs the combine kernel at twenty grid points; point `t` reads rows 5000·t … 5000·t + 4999 of the aggregated
  means and of the node features, the whole weight matrices and the whole bias row, and writes back rows
  5000·t … 5000·t + 4999 of the output. Entry (r, q) of the output therefore depends on row `r` of the means and of the
  features only:

      pre[r,q] = (∑ k, a[r,k]·Wl[k,q]) + (∑ k, x[r,k]·Wr[k,q]) + b[0,q],

  the first region storing max(pre, 0) and the second `pre`. The twenty row blocks tile the 100000 rows, so after the
  region the whole output array is that function.
-/
import proofs.«155191_j47656957116899_1_alg».proof.Proof.Gen.KernelIdeal.Frame
import proofs.«155191_j47656957116899_1_alg».proof.Proof.PointValue
import proofs.«155191_j47656957116899_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Spec

/-- A block's pre-activation at (p, q) is the whole arrays' at `i`, once row `p` of each row-blocked operand is row `i 0`
    of its array and column `q` of the weights and of the bias is column `i 1`. -/
theorem pre_block (a x : FVec Ideal S5000x128 .f32) (wl wr : FVec Ideal S128x128 .f32) (b : FVec Ideal S1x128 .f32)
    (A X : FVec Ideal S100000x128 .f32) (Wl Wr : FVec Ideal S128x128 .f32) (B : FVec Ideal S1x128 .f32)
    (p : Fin 5000) (q : Fin 128) (i : S100000x128.Idx)
    (ha : ∀ k : Fin 128, a (ix2 p k) = A (ix2 (i 0) k)) (hx : ∀ k : Fin 128, x (ix2 p k) = X (ix2 (i 0) k))
    (hwl : ∀ k : Fin 128, wl (ix2 k q) = Wl (ix2 k (i 1))) (hwr : ∀ k : Fin 128, wr (ix2 k q) = Wr (ix2 k (i 1)))
    (hb : b (ix2 0 q) = B (ix2 0 (i 1))) :
    PointValue.pre a x wl wr b p q = pre A X Wl Wr B i := by
  unfold PointValue.pre pre
  simp only [ha, hx, hwl, hwr, hb]

theorem hz : (![0, 0] : Fin 2 → Nat) = fun _ => 0 := funext fun a => by fin_cases a <;> rfl

-- the buffer contents when a region is entered: the parameter both regions' values are stated at
variable (V : (c : Dev nD) → (b : Ref sig .tc) → Buf (Elt Ideal) ((c : Thread nD τ).loc b))

/-! ## Region 0 -/

/-- The printed index maps of region 0, decided once over its twenty grid points: the two row-blocked inputs move with
    the output block along the rows, the weights and the bias row stay at block (0, 0), and the output's row-block
    index is at most 19. -/
theorem idx0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block of the output array is some grid point's. -/
theorem onto0 : ∀ r : Fin 20, ∃ t : Fin cfg0.N, win0_5.index t = ![r.val, 0] :=
  (by decide +kernel : ∀ r : Fin 20, ∃ t : Fin grid0.N, win0_5.index t = ![r.val, 0])

/-- What grid point `t` writes back is block `t` of the layer's whole-array function of the arrays the region finds:
    row `p` of the block is row `5000·t + p` of the means and of the features, and the weights and the bias are whole. -/
theorem flushed0 (c : Dev nD) (t : Fin cfg0.N) :
    (dat0 V c).flushed 5 t = ((cfg0.win 5).blk t).view.read (Elt Ideal)
      (hidden (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e51, -⟩ := idx0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = hidden (V c main_v22) (V c main_arg0) (V c main_arg2) (V c main_arg4) (V c main_v23) (((cfg0.win 5).blk t).view.emb (ix2 p q))
  refine (PointValue.layer1_apply (iblk0 V c 0 t) (iblk0 V c 1 t) (iblk0 V c 2 t) (iblk0 V c 4 t) (iblk0 V c 3 t) p q).trans ?_
  refine congrArg (fun z => max z (Ideal.ofBits .f32 0x00000000#32)) ?_
  refine pre_block _ _ _ _ _ (V c main_v22) (V c main_arg0) (V c main_arg2) (V c main_arg4) (V c main_v23) p q _
    (fun k => ?_) (fun k => ?_) (fun k => ?_) (fun k => ?_) ?_
  · show V c main_v22 (((cfg0.win 0).blk t).view.emb (ix2 p k)) = _
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_arg2 (((cfg0.win 2).blk t).view.emb (ix2 k q)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg4 (((cfg0.win 4).blk t).view.emb (ix2 k q)) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  · show V c main_v23 (((cfg0.win 3).blk t).view.emb (ix2 0 q)) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The twenty row blocks tile the output array (row `r` is in block `r / 5000`), so after the region the array holds
    the layer's whole-array function of the arrays the region found. -/
theorem final0 (c : Dev nD) : (dat0 V c).arrAt 5 cfg0.N
    = hidden (V c main_v22) (V c main_arg0) (V c main_arg2) (V c main_arg4) (V c main_v23) :=
  (dat0 V c).arrAt_eq_of_cover 5 _ (fun t _ => flushed0 V c t) fun i => by
    have hi0 : (i 0).val < 100000 := (i 0).isLt
    have hi1 : (i 1).val < 128 := (i 1).isLt
    obtain ⟨t, ht⟩ := onto0 ⟨(i 0).val / 5000, by omega⟩
    have q0 : win0_5.index t (0 : Fin 2) = (i 0).val / 5000 := congrFun ht 0
    have q1 : win0_5.index t (1 : Fin 2) = 0 := congrFun ht 1
    refine ⟨t, flush0_5 t, ?_⟩
    rw [mem_blk0]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega

/-! ## Region 1 -/

/-- The printed index maps of region 1, decided once over its twenty grid points: the two row-blocked inputs move with
    the output block along the rows, the weights and the bias row stay at block (0, 0), and the output's row-block
    index is at most 19. -/
theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every row block of the output array is some grid point's. -/
theorem onto1 : ∀ r : Fin 20, ∃ t : Fin cfg1.N, win1_5.index t = ![r.val, 0] :=
  (by decide +kernel : ∀ r : Fin 20, ∃ t : Fin grid1.N, win1_5.index t = ![r.val, 0])

/-- What grid point `t` writes back is block `t` of the layer's whole-array function of the arrays the region finds:
    row `p` of the block is row `5000·t + p` of the means and of the features, and the weights and the bias are whole. -/
theorem flushed1 (c : Dev nD) (t : Fin cfg1.N) :
    (dat1 V c).flushed 5 t = ((cfg1.win 5).blk t).view.read (Elt Ideal)
      (pre (V c main_v39) (V c main_v24) (V c main_arg5) (V c main_arg7) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e51, -⟩ := idx1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = pre (V c main_v39) (V c main_v24) (V c main_arg5) (V c main_arg7) (V c main_v40) (((cfg1.win 5).blk t).view.emb (ix2 p q))
  refine (PointValue.layer2_apply (iblk1 V c 0 t) (iblk1 V c 1 t) (iblk1 V c 2 t) (iblk1 V c 4 t) (iblk1 V c 3 t) p q).trans ?_
  show _ = pre _ _ _ _ _ _
  refine pre_block _ _ _ _ _ (V c main_v39) (V c main_v24) (V c main_arg5) (V c main_arg7) (V c main_v40) p q _
    (fun k => ?_) (fun k => ?_) (fun k => ?_) (fun k => ?_) ?_
  · show V c main_v39 (((cfg1.win 0).blk t).view.emb (ix2 p k)) = _
    refine congrArg (V c main_v39) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v24 (((cfg1.win 1).blk t).view.emb (ix2 p k)) = _
    refine congrArg (V c main_v24) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_arg7 (((cfg1.win 4).blk t).view.emb (ix2 k q)) = _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  · show V c main_v40 (((cfg1.win 3).blk t).view.emb (ix2 0 q)) = _
    refine congrArg (V c main_v40) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- The twenty row blocks tile the output array (row `r` is in block `r / 5000`), so after the region the array holds
    the layer's whole-array function of the arrays the region found. -/
theorem final1 (c : Dev nD) : (dat1 V c).arrAt 5 cfg1.N
    = pre (V c main_v39) (V c main_v24) (V c main_arg5) (V c main_arg7) (V c main_v40) :=
  (dat1 V c).arrAt_eq_of_cover 5 _ (fun t _ => flushed1 V c t) fun i => by
    have hi0 : (i 0).val < 100000 := (i 0).isLt
    have hi1 : (i 1).val < 128 := (i 1).isLt
    obtain ⟨t, ht⟩ := onto1 ⟨(i 0).val / 5000, by omega⟩
    have q0 : win1_5.index t (0 : Fin 2) = (i 0).val / 5000 := congrFun ht 0
    have q1 : win1_5.index t (1 : Fin 2) = 0 := congrFun ht 1
    refine ⟨t, flush1_5 t, ?_⟩
    rw [mem_blk1]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 128 ≤ (i 1).val ∧ (i 1).val < win1_5.index t (1 : Fin 2) * 128 + 128; omega

end Cert.KernelIdeal.RegionValue

end
-- ==== Proof.KernelValue.lean ====
/-
  The idealized kernel's result array is the network's function of the launch arguments.

  Boundary by boundary: the first host stretch leaves the neighbour means of the features and the first bias as a row;
  the first region leaves the hidden layer; the second host stretch leaves the neighbour means of the hidden layer
  (through the same sources, destinations and arrival counts, which no region touches) and the second bias as a row;
  the second region leaves the result.
-/
import proofs.«155191_j47656957116899_1_alg».proof.Proof.Gen.KernelIdeal.Frame
import proofs.«155191_j47656957116899_1_alg».proof.Proof.RegionValue
import proofs.«155191_j47656957116899_1_alg».proof.Proof.Spec
import Idealize.ShloMosaic.Lib.StableHlo.Run

set_option maxRecDepth 16384

noncomputable section

namespace Cert.KernelIdeal.KernelValue

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretch -/

set_option maxHeartbeats 4000000 in
/-- Region 0 finds the neighbour means of the features in its first operand. -/
theorem V1_mean (c : Dev nD) : V1 m ρ c main_v22 = agg (F := Ideal) (m ((c : Thread nD τ).loc main_arg0)) (m ((c : Thread nD τ).loc main_arg1)) := by
  show StableHlo.after hostOps0 (W0 m ρ c) (Proc.devRef .tc main_v22) = _
  after_results_simp
  rfl

set_option maxHeartbeats 4000000 in
/-- It finds the first bias as a one-row matrix. -/
theorem V1_bias (c : Dev nD) : V1 m ρ c main_v23 = row (F := Ideal) (m ((c : Thread nD τ).loc main_arg3)) := by
  show StableHlo.after hostOps0 (W0 m ρ c) (Proc.devRef .tc main_v23) = _
  after_results_simp
  rfl

set_option maxHeartbeats 4000000 in
/-- It finds the features, and the first layer's two weight matrices, as launched. -/
theorem V1_x (c : Dev nD) : V1 m ρ c main_arg0 = (m ((c : Thread nD τ).loc main_arg0)) := by
  show StableHlo.after hostOps0 (W0 m ρ c) (Proc.devRef .tc main_arg0) = _
  after_results_simp

set_option maxHeartbeats 4000000 in
theorem V1_wl (c : Dev nD) : V1 m ρ c main_arg2 = (m ((c : Thread nD τ).loc main_arg2)) := by
  show StableHlo.after hostOps0 (W0 m ρ c) (Proc.devRef .tc main_arg2) = _
  after_results_simp

set_option maxHeartbeats 4000000 in
theorem V1_wr (c : Dev nD) : V1 m ρ c main_arg4 = (m ((c : Thread nD τ).loc main_arg4)) := by
  show StableHlo.after hostOps0 (W0 m ρ c) (Proc.devRef .tc main_arg4) = _
  after_results_simp

/-! ## After the first region -/

/-- The first region leaves the hidden layer in its output array. -/
theorem W2_hid (c : Dev nD) : W2 m ρ c (Proc.devRef .tc main_v24)
    = hid (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((RegionValue.final0 (V1 m ρ) c).trans ?_)
  rw [V1_mean, V1_x, V1_wl, V1_wr, V1_bias]
  rfl

set_option maxHeartbeats 4000000 in
/-- The sources, the destinations and the arrival counts are the first stretch's, untouched by the region. -/
theorem W2_src (c : Dev nD) : W2 m ρ c (Proc.devRef .tc main_v1) = srcOf (F := Ideal) (m ((c : Thread nD τ).loc main_arg1)) := by
  refine (W2_of_ne m ρ c main_v1 (by decide)).trans ?_
  show StableHlo.after hostOps0 (W0 m ρ c) (Proc.devRef .tc main_v1) = _
  after_results_simp
  rfl

set_option maxHeartbeats 4000000 in
theorem W2_dst (c : Dev nD) : W2 m ρ c (Proc.devRef .tc main_v3) = dstOf (F := Ideal) (m ((c : Thread nD τ).loc main_arg1)) := by
  refine (W2_of_ne m ρ c main_v3 (by decide)).trans ?_
  show StableHlo.after hostOps0 (W0 m ρ c) (Proc.devRef .tc main_v3) = _
  after_results_simp
  rfl

set_option maxHeartbeats 4000000 in
theorem W2_cnt (c : Dev nD) : W2 m ρ c (Proc.devRef .tc main_v7) = count (F := Ideal) (dstOf (F := Ideal) (m ((c : Thread nD τ).loc main_arg1))) := by
  refine (W2_of_ne m ρ c main_v7 (by decide)).trans ?_
  show StableHlo.after hostOps0 (W0 m ρ c) (Proc.devRef .tc main_v7) = _
  after_results_simp
  rfl

set_option maxHeartbeats 4000000 in
/-- The second layer's weights and bias are as launched. -/
theorem W2_wl (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp

set_option maxHeartbeats 4000000 in
theorem W2_wr (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp

set_option maxHeartbeats 4000000 in
theorem W2_b (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp

/-! ## The second host stretch -/

set_option maxHeartbeats 4000000 in
/-- Region 1 finds the neighbour means of the first region's output in its first operand. -/
theorem V3_mean (c : Dev nD) : V3 m ρ c main_v39
    = agg (F := Ideal) (W2 m ρ c (Proc.devRef .tc main_v24)) (m ((c : Thread nD τ).loc main_arg1)) := by
  show StableHlo.after hostOps1 (W2 m ρ c) (Proc.devRef .tc main_v39) = _
  after_results_simp
  rw [W2_src, W2_dst, W2_cnt]
  rfl

set_option maxHeartbeats 4000000 in
theorem V3_h (c : Dev nD) : V3 m ρ c main_v24 = W2 m ρ c (Proc.devRef .tc main_v24) := by
  show StableHlo.after hostOps1 (W2 m ρ c) (Proc.devRef .tc main_v24) = _
  after_results_simp

set_option maxHeartbeats 4000000 in
theorem V3_bias (c : Dev nD) : V3 m ρ c main_v40 = row (F := Ideal) (m ((c : Thread nD τ).loc main_arg6)) := by
  show StableHlo.after hostOps1 (W2 m ρ c) (Proc.devRef .tc main_v40) = _
  after_results_simp
  rw [W2_b]
  rfl

set_option maxHeartbeats 4000000 in
theorem V3_wl (c : Dev nD) : V3 m ρ c main_arg5 = (m ((c : Thread nD τ).loc main_arg5)) := by
  show StableHlo.after hostOps1 (W2 m ρ c) (Proc.devRef .tc main_arg5) = _
  after_results_simp
  exact W2_wl m ρ c

set_option maxHeartbeats 4000000 in
theorem V3_wr (c : Dev nD) : V3 m ρ c main_arg7 = (m ((c : Thread nD τ).loc main_arg7)) := by
  show StableHlo.after hostOps1 (W2 m ρ c) (Proc.devRef .tc main_arg7) = _
  after_results_simp
  exact W2_wr m ρ c

/-! ## The result -/

/-- At the last boundary the result buffer holds the network's function of the launch arguments. -/
theorem result (c : Dev nD) : W4 m ρ c (Proc.devRef .tc main_v41)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((RegionValue.final1 (V3 m ρ) c).trans ?_)
  rw [V3_mean, V3_h, V3_wl, V3_wr, V3_bias, W2_hid]
  rfl

end Cert.KernelIdeal.KernelValue

end
-- ==== Proof.RefValue.lean ====
/-
  The idealized reference computes the network's function.

  The reference's stages, read one operation at a time: its two neighbour-mean stages are the shared aggregation of
  the features and of its own hidden layer; each layer is  (mean·Wl + b) + x·Wr, which is the kernel's
  (mean·Wl + x·Wr) + b  because addition of extended reals is commutative and associative (no finiteness is used);
  a product with a weight matrix is the sum over the contracted coordinate on both sides, and the reference's
  clamp is the maximum with the same zero literal.
-/
import proofs.«155191_j47656957116899_1_alg».proof.Proof.Gen.ReferenceIdeal.Read
import proofs.«155191_j47656957116899_1_alg».proof.Proof.Spec
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## The index functions of the generated reads, as coordinates -/

theorem lidx23 (r : Fin 100000) (q k : Fin 128) : lidx_main_v23 (ix2 r q) k = ix2 r k :=
  funext fun a => Fin.ext (by
    match a with
    | ⟨0, _⟩ => rfl
    | ⟨1, _⟩ => rfl)
theorem ridx23 (r : Fin 100000) (q k : Fin 128) : ridx_main_v23 (ix2 r q) k = ix2 k q :=
  funext fun a => Fin.ext (by
    match a with
    | ⟨0, _⟩ => rfl
    | ⟨1, _⟩ => rfl)
theorem lidx27 (r : Fin 100000) (q k : Fin 128) : lidx_main_v27 (ix2 r q) k = ix2 r k :=
  funext fun a => Fin.ext (by
    match a with
    | ⟨0, _⟩ => rfl
    | ⟨1, _⟩ => rfl)
theorem ridx27 (r : Fin 100000) (q k : Fin 128) : ridx_main_v27 (ix2 r q) k = ix2 k q :=
  funext fun a => Fin.ext (by
    match a with
    | ⟨0, _⟩ => rfl
    | ⟨1, _⟩ => rfl)
theorem lidx49 (r : Fin 100000) (q k : Fin 128) : lidx_main_v49 (ix2 r q) k = ix2 r k :=
  funext fun a => Fin.ext (by
    match a with
    | ⟨0, _⟩ => rfl
    | ⟨1, _⟩ => rfl)
theorem ridx49 (r : Fin 100000) (q k : Fin 128) : ridx_main_v49 (ix2 r q) k = ix2 k q :=
  funext fun a => Fin.ext (by
    match a with
    | ⟨0, _⟩ => rfl
    | ⟨1, _⟩ => rfl)
theorem lidx53 (r : Fin 100000) (q k : Fin 128) : lidx_main_v53 (ix2 r q) k = ix2 r k :=
  funext fun a => Fin.ext (by
    match a with
    | ⟨0, _⟩ => rfl
    | ⟨1, _⟩ => rfl)
theorem ridx53 (r : Fin 100000) (q k : Fin 128) : ridx_main_v53 (ix2 r q) k = ix2 k q :=
  funext fun a => Fin.ext (by
    match a with
    | ⟨0, _⟩ => rfl
    | ⟨1, _⟩ => rfl)

theorem bidx25 (r : Fin 100000) (q : Fin 128) : idx_main_v24 (idx_main_v25 (ix2 r q)) = ix1 q :=
  funext fun a => Fin.ext (by
    match a with
    | ⟨0, _⟩ => rfl)

theorem bidx51 (r : Fin 100000) (q : Fin 128) : idx_main_v50 (idx_main_v51 (ix2 r q)) = ix1 q :=
  funext fun a => Fin.ext (by
    match a with
    | ⟨0, _⟩ => rfl)

/-! ## One layer, regrouped -/

/-- The reference's grouping (mean·Wl + b) + x·Wr at entry (r, q) is the specification's (mean·Wl + x·Wr) + b, the
    bias read from the one-row matrix. -/
theorem layer_regroup (A X : FVec Ideal Cert.KernelIdeal.S100000x128 .f32) (Wl Wr : FVec Ideal Cert.KernelIdeal.S128x128 .f32)
    (b : FVec Ideal Cert.KernelIdeal.S128 .f32) (r : Fin 100000) (q : Fin 128) :
    (∑ k : Fin 128, A (ix2 r k) * Wl (ix2 k q)) + b (ix1 q) + (∑ k : Fin 128, X (ix2 r k) * Wr (ix2 k q))
      = Cert.KernelIdeal.Spec.pre A X Wl Wr (Cert.KernelIdeal.Spec.row (F := Ideal) b) (ix2 r q) := by
  show _ = (∑ k : Fin 128, A (ix2 r k) * Wl (ix2 k q)) + (∑ k : Fin 128, X (ix2 r k) * Wr (ix2 k q))
    + shapeCast Cert.KernelIdeal.S1x128 b Cert.KernelIdeal.Facts₀.shapeCasts_S128_S1x128 (ix2 (0 : Fin 1) q)
  rw [shapeCast_a_1a_apply b Cert.KernelIdeal.Facts₀.shapeCasts_S128_S1x128 (0 : Fin 1) q]
  exact add_right_comm _ _ _

/-! ## The stages -/

/-- The reference's first neighbour-mean stage is the shared aggregation of the features. -/
theorem mean1_eq (x0 : (⟨S100000x128, .f32⟩ : BufTy).Contents (Elt Ideal)) (x1 : (⟨S2x1600000, .i32⟩ : BufTy).Contents (Elt Ideal)) :
    val_main_v22 (F := Ideal) x0 x1 = Cert.KernelIdeal.Spec.agg (F := Ideal) x0 x1 := rfl

/-- The reference's hidden layer is the specification's. -/
theorem hid_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Cert.KernelIdeal.Spec.hid x0 x1 x2 x3 x4 := by
  funext i
  obtain ⟨r, q, rfl⟩ : ∃ (r : Fin 100000) (q : Fin 128), i = ix2 r q := ⟨i 0, i 1, eq_ix2 i⟩
  rw [val_main_v29_apply, val_main_v28_apply, val_main_v26_apply, val_main_v23_apply, val_main_v25_apply,
    val_main_v24_apply, val_main_v27_apply, val_main_call0_v0_apply, val_main_call0_cst_apply, mean1_eq]
  simp only [lidx23, ridx23, lidx27, ridx27, bidx25]
  exact congrArg (fun z => max z (Ideal.ofBits .f32 0x00000000#32))
    (layer_regroup (Cert.KernelIdeal.Spec.agg (F := Ideal) x0 x1) x0 x2 x4 x3 r q)

/-- The reference's second neighbour-mean stage is the shared aggregation of its hidden layer. -/
theorem mean2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4
      = Cert.KernelIdeal.Spec.agg (F := Ideal) (val_main_v29 (F := Ideal) x0 x1 x2 x3 x4) x1 := rfl

/-- The reference's result is the specification's. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7 = Cert.KernelIdeal.Spec.out x0 x1 x2 x3 x4 x5 x6 x7 := by
  funext i
  obtain ⟨r, q, rfl⟩ : ∃ (r : Fin 100000) (q : Fin 128), i = ix2 r q := ⟨i 0, i 1, eq_ix2 i⟩
  rw [val_main_v54_apply, val_main_v52_apply, val_main_v49_apply, val_main_v51_apply, val_main_v50_apply,
    val_main_v53_apply, mean2_eq, hid_eq]
  simp only [lidx49, ridx49, lidx53, ridx53, bidx51]
  exact layer_regroup (Cert.KernelIdeal.Spec.agg (F := Ideal) (Cert.KernelIdeal.Spec.hid x0 x1 x2 x3 x4) x1)
    (Cert.KernelIdeal.Spec.hid x0 x1 x2 x3 x4) x5 x7 x6 r q

end Cert.ReferenceIdeal.RefValue

end
-- ==== Proof.lean ====
/-
  A two-layer graph convolution: each layer sends a node's features `x` and the mean `a` of its incoming neighbours'
  features to  a·Wl + x·Wr + b, the first layer followed by a clamp at zero.

  The kernel computes the neighbour means on the host (gather, scatter-add, division by max(count, 1), the counts
  computed once) and the dense part in two pipelined regions over blocks of 5000 rows; the reference computes the same
  neighbour means on the host and the dense part as whole matrix products. At the ideal values the conversions to
  bf16 are the identity and a matrix product is the sum over the contracted coordinate, so both programs end with

      out = pre₂(agg(h), h),   h = max(pre₁(agg(x), x), 0),   pre(a, x)[r,q] = ∑ₖ a[r,k]·Wl[k,q] + ∑ₖ x[r,k]·Wr[k,q] + b[q],

  the reference adding the bias before the second product and the kernel after it: addition of extended reals is
  commutative and associative, so the two groupings agree on every input and the finiteness of the inputs is not used.
  The aggregation `agg` is the same host function in both programs and is never opened.

  The frames of the two kernel programs are the generated ones; the reference's frame is its generated run with the
  result dropped; the idealization rewrote nothing, so it is preserved trivially.
-/
import proofs.«155191_j47656957116899_1_alg».proof.Defs
import proofs.«155191_j47656957116899_1_alg».proof.Proof.Gen.Kernel
import proofs.«155191_j47656957116899_1_alg».proof.Proof.Gen.Kernel.Skeleton
import proofs.«155191_j47656957116899_1_alg».proof.Proof.Gen.Kernel.Launch
import proofs.«155191_j47656957116899_1_alg».proof.Proof.Gen.Kernel.Points
import proofs.«155191_j47656957116899_1_alg».proof.Proof.Gen.Kernel.Frame
import proofs.«155191_j47656957116899_1_alg».proof.Proof.Gen.KernelIdeal
import proofs.«155191_j47656957116899_1_alg».proof.Proof.Gen.KernelIdeal.Skeleton
import proofs.«155191_j47656957116899_1_alg».proof.Proof.Gen.KernelIdeal.Launch
import proofs.«155191_j47656957116899_1_alg».proof.Proof.Gen.KernelIdeal.Points
import proofs.«155191_j47656957116899_1_alg».proof.Proof.Gen.KernelIdeal.Frame
import proofs.«155191_j47656957116899_1_alg».proof.Proof.Gen.ReferenceIdeal
import proofs.«155191_j47656957116899_1_alg».proof.Proof.Gen.Pre_finite_inputs
import proofs.«155191_j47656957116899_1_alg».proof.Proof.Gen.ReferenceIdeal.Run
import proofs.«155191_j47656957116899_1_alg».proof.Proof.Gen.ReferenceIdeal.Read
import proofs.«155191_j47656957116899_1_alg».proof.Proof.KernelRun
import proofs.«155191_j47656957116899_1_alg».proof.Proof.KernelValue
import proofs.«155191_j47656957116899_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the network's function of the
    arguments in their result arrays. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.RefValue.out_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
